-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x128x128 .f32) (main_arg1 : FVec F S16x256 .f32) (main_arg2 : FVec F S16 .f32) (main_arg3 : FVec F S256x16 .f32) (main_arg4 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S4096x16384 : Shape := ⟨2, ![4096, 16384]⟩
abbrev S4096x1 : Shape := ⟨2, ![4096, 1]⟩
abbrev S256x16384 : Shape := ⟨2, ![256, 16384]⟩
abbrev S256x1 : Shape := ⟨2, ![256, 1]⟩
abbrev S16x16 : Shape := ⟨2, ![16, 16]⟩
abbrev S1x16 : Shape := ⟨2, ![1, 16]⟩
abbrev S_ : Shape := ⟨0, ![]⟩
abbrev S1x256 : Shape := ⟨2, ![1, 256]⟩
abbrev S128x16384 : Shape := ⟨2, ![128, 16384]⟩
abbrev S128x1 : Shape := ⟨2, ![128, 1]⟩

abbrev nBuf : Space → Nat
  | .hbm => 30
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S4096x16384, .f32⟩
  | .hbm, ⟨6, _⟩ => ⟨S4096x1, .f32⟩
  | .hbm, ⟨7, _⟩ => ⟨S16x256, .f32⟩
  | .hbm, ⟨8, _⟩ => ⟨S16x16, .f32⟩
  | .hbm, ⟨9, _⟩ => ⟨S1x16, .f32⟩
  | .hbm, ⟨10, _⟩ => ⟨S16x16, .f32⟩
  | .hbm, ⟨11, _⟩ => ⟨S16x16, .f32⟩
  | .hbm, ⟨12, _⟩ => ⟨S_, .f32⟩
  | .hbm, ⟨13, _⟩ => ⟨S16x16, .f32⟩
  | .hbm, ⟨14, _⟩ => ⟨S16x16, .f32⟩
  | .hbm, ⟨15, _⟩ => ⟨S16x256, .f32⟩
  | .hbm, ⟨16, _⟩ => ⟨S1x256, .f32⟩
  | .hbm, ⟨17, _⟩ => ⟨S16x256, .f32⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S4096x1, .f32⟩
  | .hbm, ⟨28, _⟩ => ⟨S4096x16384, .f32⟩
  | .hbm, ⟨29, _⟩ => ⟨S16x256x128x128, .f32⟩
  | .local _ .vmem, ⟨0, _⟩ => ⟨S256x16384, .f32⟩
  | .local _ .vmem, ⟨1, _⟩ => ⟨S256x16384, .f32⟩
  | .local _ .vmem, ⟨2, _⟩ => ⟨S256x1, .f32⟩
  | .local _ .vmem, ⟨3, _⟩ => ⟨S256x1, .f32⟩
  | .local _ .vmem, ⟨4, _⟩ => ⟨S128x16384, .f32⟩
  | .local _ .vmem, ⟨5, _⟩ => ⟨S128x16384, .f32⟩
  | .local _ .vmem, ⟨6, _⟩ => ⟨S128x1, .f32⟩
  | .local _ .vmem, ⟨7, _⟩ => ⟨S128x1, .f32⟩
  | .local _ .vmem, ⟨8, _⟩ => ⟨S128x16384, .f32⟩
  | .local _ .vmem, ⟨9, _⟩ => ⟨S128x16384, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S16x256x128x128_S4096x16384 : S16x256x128x128.ShapeCasts S4096x16384
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  reduces_S256x16384_S256 : S256x16384.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S4096x1_S16x256 : S4096x1.ShapeCasts S16x256
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  shapeCasts_S16x256_S4096x1 : S16x256.ShapeCasts S4096x1
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  shapeCasts_S4096x16384_S16x256x128x128 : S4096x16384.ShapeCasts S16x256x128x128
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S4096x16384.size a
  hwx0_0 : ∀ i : grid0.Coords, EltTy.bits .f32 = 32 ∨ (Rect.block (s := S4096x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S4096x16384.size a
  hwx1_0 : ∀ i : grid1.Coords, EltTy.bits .f32 = 32 ∨ (Rect.block (s := S4096x16384) S128x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S4096x1.size a
  hwx1_1 : ∀ i : grid1.Coords, EltTy.bits .f32 = 32 ∨ (Rect.block (s := S4096x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x16384.size a ≤ S4096x16384.size a
  hwx1_2 : ∀ i : grid1.Coords, EltTy.bits .f32 = 32 ∨ (Rect.block (s := S4096x16384) S128x16384.size (cc1_transform_2 i) (hinb1_2 i)).WholeWords (EltTy.packing .f32)

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

abbrev win0_0 : Pipeline.Window sig grid0 :=
  Pipeline.Window.ofSpec (Memref.whole main_v0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S16x16 : Shape := ⟨2, ![16, 16]⟩
abbrev S1x16 : Shape := ⟨2, ![1, 16]⟩
abbrev S1x256 : Shape := ⟨2, ![1, 256]⟩
abbrev S16x256x1x1 : Shape := ⟨4, ![16, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x16, .f32⟩
  | .hbm, ⟨11, _⟩ => ⟨S1x16, .f32⟩
  | .hbm, ⟨12, _⟩ => ⟨S16x16, .f32⟩
  | .hbm, ⟨13, _⟩ => ⟨S16x16, .f32⟩
  | .hbm, ⟨14, _⟩ => ⟨S_, .f32⟩
  | .hbm, ⟨15, _⟩ => ⟨S16x16, .f32⟩
  | .hbm, ⟨16, _⟩ => ⟨S16x16, .f32⟩
  | .hbm, ⟨17, _⟩ => ⟨S16x256, .f32⟩
  | .hbm, ⟨18, _⟩ => ⟨S1x256, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S_, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256x1x1, .f32⟩
  | .hbm, ⟨30, _⟩ => ⟨S16x256x128x128, .f32⟩
  | .hbm, ⟨31, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

class Facts : Prop extends Facts₀ where

variable [Facts]
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.Payloads.lean ====
/-
  The two kernel bodies' arithmetic, read at an index of the output block, at the extended reals.

  The pooling body sums each of its 256 rows over the 16384 lanes and multiplies by the word 2⁻¹⁴; the gating body multiplies
  each row of its [128, 16384] block by that row's entry of the [128, 1] gate column. Each is stated over variables of the
  literal block types, and then as the corresponding whole-array function (`rowMean`, `rowScale`) read where the
  block sits in its array.
-/
import proofs.«161845_j33706903339438_2_alg».proof.Proof.Gen.KernelIdeal.Skeleton
import proofs.«161845_j33706903339438_2_alg».proof.Proof.LibKeepdimsLayout
import Idealize.ShloMosaic.PureOps.Ideal.Laws
import Idealize.ShloMosaic.Lib.ValueIdx
import Idealize.ShloMosaic.Lib.Pipeline.Value

noncomputable section

namespace Cert.KernelIdeal.Rows

open Cert.KernelIdeal Cert.KernelIdeal.Gen Idealize.ShloMosaic Idealize.ShloMosaic.ValueIdx

/-- Every row of a [4096, 16384] array summed over its lanes and scaled by 2⁻¹⁴, as a [4096, 1] column. -/
def rowMean (X : S4096x16384.Idx → EReal) : S4096x1.Idx → EReal :=
  fun i => (∑ l : Fin 16384, X (ix2 ⟨(i 0).val, (i 0).isLt⟩ l)) * Ideal.ofBits .f32 0x38800000#32

/-- Every row of a [4096, 16384] array multiplied by that row's entry of a [4096, 1] column. -/
def rowScale (X : S4096x16384.Idx → EReal) (g : S4096x1.Idx → EReal) : S4096x16384.Idx → EReal :=
  fun i => X i * g (ix2 ⟨(i 0).val, (i 0).isLt⟩ (0 : Fin 1))

/-- The pooling body at (p, u): row p of its block summed over the lanes, times 2⁻¹⁴. The lane sum starts from the
    zero word, which is the sum's neutral element, so it is the plain finite sum. -/
theorem mean_pay_apply (x0 : FVec Ideal S256x16384 .f32) (p : Fin 256) (u : Fin 1) :
    k0_pay1 (F := Ideal) x0 (ix2 p u) = (∑ l : Fin 16384, x0 (ix2 p l)) * Ideal.ofBits .f32 0x38800000#32 := by
  unfold k0_pay1
  show (shapeCast S256x1 (multiReduction (F := Ideal) .add [1] S256 (shapeCast S256x16384 x0 shapeCasts_S256x16384_S256x16384)
      0x00000000#32 reduces_S256x16384_S256 (.inl rfl) rfl) shapeCasts_S256_S256x1 (ix2 p u)) * Ideal.ofBits .f32 0x38800000#32 = _
  refine congrArg (· * Ideal.ofBits .f32 0x38800000#32) ?_
  refine (Cert.KernelIdeal.Val.shapeCast_a_a1_apply _ shapeCasts_S256_S256x1 p u).trans ?_
  refine (Ideal.multiReduction_add_single _ 0x00000000#32 reduces_S256x16384_S256 (.inl rfl) rfl (ix1 p)).trans ?_
  refine Finset.sum_congr rfl fun l _ => ?_
  rw [shapeCast_self]
  exact congrArg x0 (funext fun a => Fin.ext (by match a with | ⟨0, _⟩ => rfl | ⟨1, _⟩ => rfl))

/-- The gating body at (p, l): the block's entry times the gate column's entry of row p. -/
theorem gate_pay_apply (x0 : FVec Ideal S128x16384 .f32) (x1 : FVec Ideal S128x1 .f32) (p : Fin 128) (l : Fin 16384) :
    k1_pay1 (F := Ideal) x0 x1 (ix2 p l) = x0 (ix2 p l) * x1 (ix2 p (0 : Fin 1)) := by
  unfold k1_pay1
  show (shapeCast S128x16384 x0 shapeCasts_S128x16384_S128x16384 (ix2 p l))
      * (broadcastTo S128x16384 (shapeCast S128x1 x1 shapeCasts_S128x1_S128x1) broadcasts_S128x1_S128x16384 (ix2 p l)) = _
  rw [shapeCast_self, Cert.KernelIdeal.Val.broadcastTo_a1_ab_apply, shapeCast_self]

/-- The pooling body's block is a block of `rowMean`: if row (y 0) of the input block is row (i 0) of the array `X`,
    the body's value at y is `rowMean X` at i. -/
theorem mean_point (x0 : FVec Ideal S256x16384 .f32) (X : S4096x16384.Idx → EReal) (y : S256x1.Idx) (i : S4096x1.Idx)
    (hx : ∀ l : Fin 16384, x0 (ix2 ⟨(y 0).val, (y 0).isLt⟩ l) = X (ix2 ⟨(i 0).val, (i 0).isLt⟩ l)) :
    k0_pay1 (F := Ideal) x0 y = rowMean X i := by
  obtain ⟨p, u, rfl⟩ : ∃ (p : Fin 256) (u : Fin 1), y = ix2 p u := ⟨y 0, y 1, eq_ix2 y⟩
  refine (mean_pay_apply x0 p u).trans ?_
  unfold rowMean
  exact congrArg (· * Ideal.ofBits .f32 0x38800000#32) (Finset.sum_congr rfl fun l _ => hx l)

/-- The gating body's block is a block of `rowScale`: if the input block at y is `X` at i, and the gate block's entry of
    row (y 0) is the column `g`'s entry of row (i 0), the body's value at y is `rowScale X g` at i. -/
theorem gate_point (x0 : FVec Ideal S128x16384 .f32) (x1 : FVec Ideal S128x1 .f32) (X : S4096x16384.Idx → EReal)
    (g : S4096x1.Idx → EReal) (y : S128x16384.Idx) (i : S4096x16384.Idx) (hx : x0 y = X i)
    (hg : x1 (ix2 ⟨(y 0).val, (y 0).isLt⟩ (0 : Fin 1)) = g (ix2 ⟨(i 0).val, (i 0).isLt⟩ (0 : Fin 1))) :
    k1_pay1 (F := Ideal) x0 x1 y = rowScale X g i := by
  obtain ⟨p, l, rfl⟩ : ∃ (p : Fin 128) (l : Fin 16384), y = ix2 p l := ⟨y 0, y 1, eq_ix2 y⟩
  refine (gate_pay_apply x0 x1 p l).trans ?_
  unfold rowScale
  rw [hx]
  exact congrArg (X i * ·) hg

end Cert.KernelIdeal.Rows

end
-- ==== Proof.PoolValue.lean ====
/-
  The pooling region's output array after the region, as one function of the array the region finds in its input
  window: `rowMean` of it.

  Grid point t of 16 reads rows 256·t … 256·t + 255 of the [4096, 16384] array and writes rows 256·t … 256·t + 255 of the
  [4096, 1] column; the sixteen written blocks tile the column, and each is the block of `rowMean` at its place, so the
  column ends holding `rowMean` of the input array.
-/
import proofs.«161845_j33706903339438_2_alg».proof.Proof.Gen.KernelIdeal.Frame
import proofs.«161845_j33706903339438_2_alg».proof.Proof.Payloads
import Idealize.ShloMosaic.Lib.Pipeline.Value

noncomputable section

namespace Cert.KernelIdeal.Pool

open Cert.KernelIdeal Cert.KernelIdeal.Gen Cert.KernelIdeal.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Both windows' block at grid point t is block (t, 0): decided over the sixteen points. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What grid point t writes back is block t of `rowMean` of the input array as the region finds it. -/
theorem flushed_eq (c : Dev nD) (t : Fin cfg0.N) :
    (dat0 V c).flushed 1 t = ((cfg0.win 1).blk t).view.read (Elt Ideal) (rowMean (V c main_v0)) := by
  show (cfg0.win 1).cut (grid0.coords t) ((dat0 V c).after 1 t) = _
  rw [after0_1]
  unfold out0_1
  rw [View.canon_unit_zero zero_offsets]
  simp only [View.ld_unit_zero (S := S256x16384) zero_offsets]
  obtain ⟨e0, e1, e2, e3⟩ := block_index t
  funext y
  show k0_pay1 (iblk0 V c 0 t) y = rowMean (V c main_v0) (((cfg0.win 1).blk t).view.emb y)
  refine mean_point (iblk0 V c 0 t) (V c main_v0) y (((cfg0.win 1).blk t).view.emb y) fun l => ?_
  unfold iblk0
  rw [View.read_apply]
  show V c main_v0 _ = V c main_v0 _
  refine congrArg (V c main_v0) (funext fun a => Fin.ext ?_)
  match a with
  | ⟨0, _⟩ =>
    show win0_0.index t (0 : Fin 2) * 256 + 1 * (y 0).val = win0_1.index t (0 : Fin 2) * 256 + 1 * (y 0).val
    rw [e0, e2]
  | ⟨1, _⟩ =>
    show win0_0.index t (1 : Fin 2) * 16384 + 1 * l.val = l.val
    rw [e1]; omega

/-- An index of the column is in point t's block iff each coordinate is in the block's range on its axis. -/
theorem mem_blk (t : Fin cfg0.N) (i : S4096x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v1).slice (win0_1.rect t)).set ↔ _
  rw [View.set_slice_whole, Rect.mem_set_unit]
  exact Iff.rfl

/-- Row r of the column is written by grid point r / 256. -/
theorem cover (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  obtain ⟨t, ht⟩ : ∃ t : Fin cfg0.N, t.val = (i 0).val / 256 :=
    ⟨⟨(i 0).val / 256, by rw [show cfg0.N = 16 from N_0]; omega⟩, rfl⟩
  obtain ⟨-, -, e2, e3⟩ := block_index t
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    rw [e2, ht]; omega
  | ⟨1, _⟩ =>
    show win0_1.index t (1 : Fin 2) * 1 ≤ (i 1).val ∧ (i 1).val < win0_1.index t (1 : Fin 2) * 1 + 1
    rw [e3]; omega

/-- The pooled column after the region: `rowMean` of the input array. -/
theorem final (c : Dev nD) : (dat0 V c).arrAt 1 cfg0.N = rowMean (V c main_v0) :=
  (dat0 V c).arrAt_eq_of_cover 1 (rowMean (V c main_v0)) (fun t _ => flushed_eq V c t) cover

end Cert.KernelIdeal.Pool

end
-- ==== Proof.GateValue.lean ====
/-
  The gating region's output array after the region, as one function of the two arrays the region finds in its input
  windows: `rowScale` of them.

  Grid point t of 32 reads rows 128·t … 128·t + 127 of the [4096, 16384] array and of the [4096, 1] gate column and writes
  the same rows of the [4096, 16384] result; the thirty-two written blocks tile the result, and each is the block of
  `rowScale` at its place.
-/
import proofs.«161845_j33706903339438_2_alg».proof.Proof.Gen.KernelIdeal.Frame
import proofs.«161845_j33706903339438_2_alg».proof.Proof.Payloads
import Idealize.ShloMosaic.Lib.Pipeline.Value

noncomputable section

namespace Cert.KernelIdeal.Gate

open Cert.KernelIdeal Cert.KernelIdeal.Gen Cert.KernelIdeal.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- All three windows' block at grid point t is block (t, 0): decided over the thirty-two points. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What grid point t writes back is block t of `rowScale` of the two input arrays as the region finds them. -/
theorem flushed_eq (c : Dev nD) (t : Fin cfg1.N) :
    (dat1 V c).flushed 2 t = ((cfg1.win 2).blk t).view.read (Elt Ideal) (rowScale (V c main_v0) (V c main_v18)) := by
  show (cfg1.win 2).cut (grid1.coords t) ((dat1 V c).after 2 t) = _
  rw [after1_2]
  unfold out1_2
  rw [View.canon_unit_zero zero_offsets]
  simp only [View.ld_unit_zero (S := S128x16384) zero_offsets, View.ld_unit_zero (S := S128x1) zero_offsets]
  obtain ⟨e0, e1, e2, e3, e4, e5⟩ := block_index t
  funext y
  show k1_pay1 (iblk1 V c 0 t) (iblk1 V c 1 t) y = rowScale (V c main_v0) (V c main_v18) (((cfg1.win 2).blk t).view.emb y)
  refine gate_point (iblk1 V c 0 t) (iblk1 V c 1 t) (V c main_v0) (V c main_v18) y (((cfg1.win 2).blk t).view.emb y) ?_ ?_
  · unfold iblk1
    rw [View.read_apply]
    show V c main_v0 _ = V c main_v0 _
    refine congrArg (V c main_v0) (funext fun a => Fin.ext ?_)
    match a with
    | ⟨0, _⟩ =>
      show win1_0.index t (0 : Fin 2) * 128 + 1 * (y 0).val = win1_2.index t (0 : Fin 2) * 128 + 1 * (y 0).val
      rw [e0, e4]
    | ⟨1, _⟩ =>
      show win1_0.index t (1 : Fin 2) * 16384 + 1 * (y 1).val = win1_2.index t (1 : Fin 2) * 16384 + 1 * (y 1).val
      rw [e1, e5]
  · unfold iblk1
    rw [View.read_apply]
    show V c main_v18 _ = V c main_v18 _
    refine congrArg (V c main_v18) (funext fun a => Fin.ext ?_)
    match a with
    | ⟨0, _⟩ =>
      show win1_1.index t (0 : Fin 2) * 128 + 1 * (y 0).val = win1_2.index t (0 : Fin 2) * 128 + 1 * (y 0).val
      rw [e2, e4]
    | ⟨1, _⟩ =>
      show win1_1.index t (1 : Fin 2) * 1 + 1 * 0 = 0
      rw [e3]

/-- An index of the result is in point t's block iff each coordinate is in the block's range on its axis. -/
theorem mem_blk (t : Fin cfg1.N) (i : S4096x16384.Idx) :
    i ∈ ((cfg1.win 2).blk t).view.set ↔ ∀ a : Fin 2, win1_2.index t a * S128x16384.size a ≤ (i a).val ∧ (i a).val < win1_2.index t a * S128x16384.size a + S128x16384.size a := by
  show i ∈ ((View.whole main_v19).slice (win1_2.rect t)).set ↔ _
  rw [View.set_slice_whole, Rect.mem_set_unit]
  exact Iff.rfl

/-- Row r of the result is written by grid point r / 128. -/
theorem cover (i : S4096x16384.Idx) : ∃ t : Fin cfg1.N, (cfg1.win 2).flush t = true ∧ i ∈ ((cfg1.win 2).blk t).view.set := by
  have hi0 : (i 0).val < 4096 := (i 0).isLt
  have hi1 : (i 1).val < 16384 := (i 1).isLt
  obtain ⟨t, ht⟩ : ∃ t : Fin cfg1.N, t.val = (i 0).val / 128 :=
    ⟨⟨(i 0).val / 128, by rw [show cfg1.N = 32 from N_1]; omega⟩, rfl⟩
  obtain ⟨-, -, -, -, e4, e5⟩ := block_index t
  refine ⟨t, flush1_2 t, ?_⟩
  rw [mem_blk]
  intro a
  match a with
  | ⟨0, _⟩ =>
    show win1_2.index t (0 : Fin 2) * 128 ≤ (i 0).val ∧ (i 0).val < win1_2.index t (0 : Fin 2) * 128 + 128
    rw [e4, ht]; omega
  | ⟨1, _⟩ =>
    show win1_2.index t (1 : Fin 2) * 16384 ≤ (i 1).val ∧ (i 1).val < win1_2.index t (1 : Fin 2) * 16384 + 16384
    rw [e5]; omega

/-- The gated result after the region: `rowScale` of the input array and the gate column. -/
theorem final (c : Dev nD) : (dat1 V c).arrAt 2 cfg1.N = rowScale (V c main_v0) (V c main_v18) :=
  (dat1 V c).arrAt_eq_of_cover 2 (rowScale (V c main_v0) (V c main_v18)) (fun t _ => flushed_eq V c t) cover

end Cert.KernelIdeal.Gate

end
-- ==== Proof.KernelRun.lean ====
/-
  The idealized kernel's run with its result array named, and that array as one function of the argument arrays.

  @main is seven segments: a reshape of x to [4096, 16384]; the pooling region; the squeeze-and-excite gate on the host
  (a reshape of the pooled column to [16, 256], two small matrix products with bias, a maximum with zero, a logistic
  written as 1 / (1 + exp(−·)), a reshape back to a [4096, 1] column); the gating region; a reshape of the result to
  [16, 256, 128, 128]. The buffer contents at each boundary are a fold from the launch memory; read at the result
  buffer, the fold is
      reshape (rowScale X (reshape (seGate (reshape (rowMean X)) w1 b1 w2 b2)))      with X = reshape x.
-/
import proofs.«161845_j33706903339438_2_alg».proof.Proof.Gen.KernelIdeal.Frame
import proofs.«161845_j33706903339438_2_alg».proof.Proof.PoolValue
import proofs.«161845_j33706903339438_2_alg».proof.Proof.GateValue
import Idealize.ShloMosaic.Lib.StableHlo.Run

set_option maxRecDepth 16384

noncomputable section

namespace Cert.KernelIdeal.Run

open Cert.KernelIdeal Cert.KernelIdeal.Gen Cert.KernelIdeal.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The run, with the result buffer named -/

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over the seven segments, the last thread state read against the
    final state at the result buffer and at each argument. -/
theorem run_named : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v20 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Named

/-! ## The fold read at the result buffer, at the extended reals -/

/-- The squeeze-and-excite gate as the host computes it from the pooled means s [16, 256]:
    1 / (1 + exp(−(max(s·w1ᵀ + b1, 0)·w2ᵀ + b2))), entry by entry. Never opened: the reference applies the same chain. -/
def seGate (s : FVec Ideal S16x256 .f32) (w1 : FVec Ideal S16x256 .f32) (b1 : FVec Ideal S16 .f32)
    (w2 : FVec Ideal S256x16 .f32) (b2 : FVec Ideal S256 .f32) : FVec Ideal S16x256 .f32 :=
  Host.divf (F := Ideal) (broadcastInDim S16x256 ![] bcast_S_S16x256 (constant (F := Ideal) S_ .f32 0x3F800000#32)) (addf (broadcastInDim S16x256 ![] bcast_S_S16x256 (constant (F := Ideal) S_ .f32 0x3F800000#32)) (Host.exp (F := Ideal) (Host.negf (F := Ideal) (addf (Host.dotGeneral (F := Ideal) dot_S16x16_S256x16_S16x256_1_1_0_0_n_n none (maximumf (addf (Host.dotGeneral (F := Ideal) dot_S16x256_S16x256_S16x16_1_1_0_0_n_n none s w1) (broadcastInDim S16x16 ![0, 1] bcast_S1x16_S16x16_0_1 (broadcastInDim S1x16 ![1] bcast_S16_S1x16_1 b1))) (broadcastInDim S16x16 ![] bcast_S_S16x16 (constant (F := Ideal) S_ .f32 0x00000000#32))) w2) (broadcastInDim S16x256 ![0, 1] bcast_S1x256_S16x256_0_1 (broadcastInDim S1x256 ![1] bcast_S256_S1x256_1 b2))))))

/-- The kernel's result as one function of the argument arrays. -/
def result (x : FVec Ideal S16x256x128x128 .f32) (w1 : FVec Ideal S16x256 .f32) (b1 : FVec Ideal S16 .f32)
    (w2 : FVec Ideal S256x16 .f32) (b2 : FVec Ideal S256 .f32) : FVec Ideal S16x256x128x128 .f32 :=
  shapeCast S16x256x128x128
    (rowScale (shapeCast S4096x16384 x shapeCasts_S16x256x128x128_S4096x16384)
      (shapeCast S4096x1
        (seGate (shapeCast S16x256 (rowMean (shapeCast S4096x16384 x shapeCasts_S16x256x128x128_S4096x16384)) shapeCasts_S4096x1_S16x256)
          w1 b1 w2 b2)
        shapeCasts_S16x256_S4096x1))
    shapeCasts_S4096x16384_S16x256x128x128

variable (m : (ℓ : Loc nD τ sig) → Buf (Elt Ideal) ℓ) (ρ : Dev nD → PrngReg)

/-- Entering the pooling region, the flat array is the reshape of x. -/
theorem entry_flat (c : Dev nD) :
    (V1 m ρ c main_v0 : S4096x16384.Idx → EReal)
      = shapeCast S4096x16384 (m ((c : Thread nD τ).loc main_arg0)) shapeCasts_S16x256x128x128_S4096x16384 := by
  show StableHlo.after hostOps0 (W0 m ρ c) (Proc.devRef .tc main_v0) = _
  after_results
  rfl

/-- The pooling region leaves its input array as it found it (an input window is never written back). -/
theorem pooled_flat (c : Dev nD) : W2 m ρ c (Proc.devRef .tc main_v0) = V1 m ρ c main_v0 :=
  (W2_arr m ρ c 0).trans (((dat0 (V1 m ρ) c).arrAt_in 0 rfl cfg0.N).trans (A_eq0 (V1 m ρ) c 0))

/-- and leaves in its output array the row means of that array. -/
theorem pooled_column (c : Dev nD) : W2 m ρ c (Proc.devRef .tc main_v1) = rowMean (V1 m ρ c main_v0) :=
  (W2_arr m ρ c 1).trans (Cert.KernelIdeal.Pool.final (V1 m ρ) c)

/-- No region or host operation up to the pooling region's exit writes an argument. -/
theorem pooled_arg (c : Dev nD) (r : Ref sig .tc) (h0 : ∀ w, Pipeline.arrRef spec0 w ≠ r) (h1 : r ≠ main_v0) :
    W2 m ρ c (Proc.devRef .tc r) = m ((c : Thread nD τ).loc r) := by
  rw [W2_of_ne m ρ c r h0]
  show StableHlo.after hostOps0 (W0 m ρ c) (Proc.devRef .tc r) = _
  simp only [StableHlo.after_cons, StableHlo.after_nil]
  rw [StableHlo.reshape_result_ne (h := h1)]
  try rfl

/-- The host stretch between the regions writes neither region's flat input array. -/
theorem gate_flat (c : Dev nD) : V5 m ρ c main_v0 = W2 m ρ c (Proc.devRef .tc main_v0) := by
  show StableHlo.after hostOps1_2 (StableHlo.after hostOps1_1 (StableHlo.after hostOps1 (W2 m ρ c))) (Proc.devRef .tc main_v0) = _
  after_results <;> rfl

/-- Entering the gating region, the gate column is the reshape of the gate of the reshaped pooled column. -/
theorem gate_column (c : Dev nD) :
    (V5 m ρ c main_v18 : S4096x1.Idx → EReal)
      = shapeCast S4096x1
          (seGate (shapeCast S16x256 (W2 m ρ c (Proc.devRef .tc main_v1)) shapeCasts_S4096x1_S16x256)
            (W2 m ρ c (Proc.devRef .tc main_arg1)) (W2 m ρ c (Proc.devRef .tc main_arg2))
            (W2 m ρ c (Proc.devRef .tc main_arg3)) (W2 m ρ c (Proc.devRef .tc main_arg4)))
          shapeCasts_S16x256_S4096x1 := by
  show StableHlo.after hostOps1_2 (StableHlo.after hostOps1_1 (StableHlo.after hostOps1 (W2 m ρ c))) (Proc.devRef .tc main_v18) = _
  after_results <;> rfl

/-- The gating region leaves in its output array the rows of its flat input scaled by its gate column. -/
theorem gated_flat (c : Dev nD) :
    W6 m ρ c (Proc.devRef .tc main_v19) = rowScale (V5 m ρ c main_v0) (V5 m ρ c main_v18) :=
  (W6_arr m ρ c 2).trans (Cert.KernelIdeal.Gate.final (V5 m ρ) c)

/-- The last boundary's contents at the result buffer: the reshape of the gating region's output. -/
theorem exit_reshape (c : Dev nD) :
    (W7 m ρ c (Proc.devRef .tc main_v20) : S16x256x128x128.Idx → EReal)
      = shapeCast S16x256x128x128 (W6 m ρ c (Proc.devRef .tc main_v19)) shapeCasts_S4096x16384_S16x256x128x128 := by
  show StableHlo.after hostOps2 (W6 m ρ c) (Proc.devRef .tc main_v20) = _
  after_results <;> rfl

/-- The fold, read at the result buffer, is `result` of the arguments as launched. -/
theorem fold_result (c : Dev nD) :
    W7 m ρ c (Proc.devRef .tc main_v20)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have hX : V5 m ρ c main_v0 = shapeCast S4096x16384 (m ((c : Thread nD τ).loc main_arg0)) shapeCasts_S16x256x128x128_S4096x16384 :=
    (gate_flat m ρ c).trans ((pooled_flat m ρ c).trans (entry_flat m ρ c))
  have hG := gate_column m ρ c
  rw [pooled_column m ρ c, entry_flat m ρ c, pooled_arg m ρ c main_arg1 (by decide) (by decide),
    pooled_arg m ρ c main_arg2 (by decide) (by decide), pooled_arg m ρ c main_arg3 (by decide) (by decide),
    pooled_arg m ρ c main_arg4 (by decide) (by decide)] at hG
  refine (exit_reshape m ρ c).trans ?_
  unfold result
  refine congrArg (fun y => shapeCast S16x256x128x128 y shapeCasts_S4096x16384_S16x256x128x128) ?_
  refine (gated_flat m ρ c).trans ?_
  rw [hX, hG]

/-- THE RUN, READ: every weakly fair execution of the idealized kernel terminates with its result array at `result` of
    the arguments and the arguments unchanged. -/
theorem run : θ_run defs (onTc (τ := τ) (main (F := Ideal))) ⟨m, fun _ => 0, ρ⟩ (fun r => ∀ c : Dev nD,
      r.2.mem ((c.tc : Thread nD τ).loc main_v20)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (fold_result m ρ c), (h c).2⟩) (run_named (F := Ideal) m ρ)

end Cert.KernelIdeal.Run

end
-- ==== Proof.LibPlaneRows.lean ====
/-
  An array of shape [A, B, H, W] beside its row-flattening [A·B, H·W]: row b·B + c of the flattening is the H × W
  plane at (b, c), laid out position by position, l = h·W + w.

  * the four reshapes between the two layouts (and between the column [A·B, 1] and the grid [A, B]) read at an index;
  * the host's sum over the two trailing axes of the [A, B, H, W] array, at (b, c), as the initial value plus the sum
    over the H·W positions of that plane — the same index set as a lane sum over row b·B + c of the flattening.

  General in A, B, H, W and in the element type; the sum is over the extended reals.
-/
import Idealize.ShloMosaic.PureOps.Ideal.Laws
import Idealize.ShloMosaic.Lib.ValueIdx
import Idealize.ShloMosaic.Lib.Pipeline.Value

namespace Cert.PlaneRows

open Idealize.ShloMosaic Idealize.ShloMosaic.ValueIdx

/-! ## Positions of a plane and rows of the flattening -/

/-- The row of the plane at which position `l` of its H·W positions sits: l / W. -/
def planeRow {H W N : ℕ} (hN : N = H * W) (l : Fin N) : Fin H :=
  ⟨l.val / W, Nat.div_lt_of_lt_mul (by
    have h1 := l.isLt
    have h2 : N = W * H := by rw [hN, Nat.mul_comm]
    omega)⟩

/-- Its column: l % W (W is positive, the plane having a position). -/
def planeCol {H W N : ℕ} (hN : N = H * W) (l : Fin N) : Fin W :=
  ⟨l.val % W, Nat.mod_lt _ (Nat.pos_of_ne_zero fun h0 => by
    have h1 := l.isLt
    have h2 : N = 0 := by rw [hN, h0, Nat.mul_zero]
    omega)⟩

/-- The position of (h, w) among the plane's H·W positions: h·W + w. -/
def planePos {H W N : ℕ} (hN : N = H * W) (h : Fin H) (w : Fin W) : Fin N :=
  ⟨h.val * W + w.val, by
    rw [hN]
    calc h.val * W + w.val < h.val * W + W := Nat.add_lt_add_left w.isLt _
      _ = (h.val + 1) * W := (Nat.succ_mul _ _).symm
      _ ≤ H * W := Nat.mul_le_mul_right W h.isLt⟩

/-- Row b·B + c of the flattening. -/
def flatRow {A B R : ℕ} (hR : R = A * B) (b : Fin A) (c : Fin B) : Fin R :=
  planePos hR b c

@[simp] theorem planePos_val {H W N : ℕ} (hN : N = H * W) (h : Fin H) (w : Fin W) :
    (planePos hN h w).val = h.val * W + w.val := rfl
@[simp] theorem flatRow_val {A B R : ℕ} (hR : R = A * B) (b : Fin A) (c : Fin B) :
    (flatRow hR b c).val = b.val * B + c.val := rfl

theorem planeRow_pos {H W N : ℕ} (hN : N = H * W) (h : Fin H) (w : Fin W) : planeRow hN (planePos hN h w) = h :=
  Fin.ext (by
    show (h.val * W + w.val) / W = h.val
    have hW : 0 < W := Nat.pos_of_ne_zero fun h0 => by have := w.isLt; omega
    rw [Nat.add_comm, Nat.add_mul_div_right _ _ hW, Nat.div_eq_of_lt w.isLt, Nat.zero_add])

theorem planeCol_pos {H W N : ℕ} (hN : N = H * W) (h : Fin H) (w : Fin W) : planeCol hN (planePos hN h w) = w :=
  Fin.ext (by
    show (h.val * W + w.val) % W = w.val
    rw [Nat.add_comm, Nat.add_mul_mod_self_right, Nat.mod_eq_of_lt w.isLt])

theorem planePos_row_col {H W N : ℕ} (hN : N = H * W) (l : Fin N) : planePos hN (planeRow hN l) (planeCol hN l) = l :=
  Fin.ext (Nat.div_add_mod' l.val W)

/-! ## The reshapes read at an index -/

variable {α : Type}

/-- The flattening read at (row b·B + c, position l) is the array at (b, c, l / W, l % W). -/
theorem flatten_apply {A B H W R N : ℕ} (hR : R = A * B) (hN : N = H * W)
    (x : (⟨4, ![A, B, H, W]⟩ : Shape).Idx → α) (h : (⟨4, ![A, B, H, W]⟩ : Shape).ShapeCasts ⟨2, ![R, N]⟩)
    (b : Fin A) (c : Fin B) (l : Fin N) :
    shapeCast ⟨2, ![R, N]⟩ x h (ix2 (flatRow hR b c) l) = x (ix4 b c (planeRow hN l) (planeCol hN l)) :=
  shapeCast_apply x h _ _ (by
    rw [Shape.rowMajor_val_four, Shape.rowMajor_val_two]
    show ((b.val * B + c.val) * H + l.val / W) * W + l.val % W = (b.val * B + c.val) * N + l.val
    have e := Nat.div_add_mod' l.val W
    generalize l.val = lv at e ⊢
    rw [hN]
    generalize lv / W = d at e ⊢
    generalize lv % W = r at e ⊢
    subst e
    ring)

/-- The [A·B, H·W] layout cast back to [A, B, H, W], read at (b, c, h, w), is the flat array at (b·B + c, h·W + w). -/
theorem unflatten_apply {A B H W R N : ℕ} (hR : R = A * B) (hN : N = H * W)
    (y : (⟨2, ![R, N]⟩ : Shape).Idx → α) (h : (⟨2, ![R, N]⟩ : Shape).ShapeCasts ⟨4, ![A, B, H, W]⟩)
    (b : Fin A) (c : Fin B) (p : Fin H) (q : Fin W) :
    shapeCast ⟨4, ![A, B, H, W]⟩ y h (ix4 b c p q) = y (ix2 (flatRow hR b c) (planePos hN p q)) :=
  shapeCast_apply y h _ _ (by
    rw [Shape.rowMajor_val_four, Shape.rowMajor_val_two]
    show (b.val * B + c.val) * N + (p.val * W + q.val) = ((b.val * B + c.val) * H + p.val) * W + q.val
    generalize p.val = pv
    generalize q.val = qv
    rw [hN]
    ring)

/-- A column [A·B, 1] cast to the grid [A, B], read at (b, c), is the column at row b·B + c. -/
theorem column_to_grid_apply {A B R : ℕ} (hR : R = A * B)
    (s : (⟨2, ![R, 1]⟩ : Shape).Idx → α) (h : (⟨2, ![R, 1]⟩ : Shape).ShapeCasts ⟨2, ![A, B]⟩) (b : Fin A) (c : Fin B) :
    shapeCast ⟨2, ![A, B]⟩ s h (ix2 b c) = s (ix2 (flatRow hR b c) (0 : Fin 1)) :=
  shapeCast_apply s h _ _ (by
    rw [Shape.rowMajor_val_two, Shape.rowMajor_val_two]
    show (b.val * B + c.val) * 1 + 0 = b.val * B + c.val
    rw [Nat.mul_one, Nat.add_zero])

/-- The grid [A, B] cast to a column [A·B, 1], read at (row b·B + c, u), is the grid at (b, c). -/
theorem grid_to_column_apply {A B R : ℕ} (hR : R = A * B)
    (g : (⟨2, ![A, B]⟩ : Shape).Idx → α) (h : (⟨2, ![A, B]⟩ : Shape).ShapeCasts ⟨2, ![R, 1]⟩) (b : Fin A) (c : Fin B) (u : Fin 1) :
    shapeCast ⟨2, ![R, 1]⟩ g h (ix2 (flatRow hR b c) u) = g (ix2 b c) :=
  shapeCast_apply g h _ _ (by
    have hu : u.val = 0 := by omega
    rw [Shape.rowMajor_val_two, Shape.rowMajor_val_two]
    show b.val * B + c.val = (b.val * B + c.val) * 1 + u.val
    rw [hu, Nat.mul_one, Nat.add_zero])

/-! ## The host's sum over the two trailing axes -/

/-- The kept axes of a rank-4 shape reduced over its axes 2 and 3 are axes 0 and 1: the dropped index of (b', c', h, w)
    is (b', c'). -/
theorem kept_trailing (d : Fin 4 → ℕ) : (⟨4, d⟩ : Shape).kept [2, 3] = [0, 1] := rfl
theorem drop_val0 {A B H W : ℕ} (h' : (⟨4, ![A, B, H, W]⟩ : Shape).ReducesTo [2, 3] ⟨2, ![A, B]⟩)
    (i : (⟨4, ![A, B, H, W]⟩ : Shape).Idx) : (h'.drop i 0).val = (i 0).val :=
  Shape.ReducesTo.drop_apply_val_of_eq h' i 0 0 (by rw [kept_trailing]; exact Nat.zero_lt_two) (by simp only [kept_trailing]; rfl)
theorem drop_val1 {A B H W : ℕ} (h' : (⟨4, ![A, B, H, W]⟩ : Shape).ReducesTo [2, 3] ⟨2, ![A, B]⟩)
    (i : (⟨4, ![A, B, H, W]⟩ : Shape).Idx) : (h'.drop i 1).val = (i 1).val :=
  Shape.ReducesTo.drop_apply_val_of_eq h' i 1 1 (by rw [kept_trailing]; exact Nat.one_lt_two) (by simp only [kept_trailing]; rfl)

/-- An index whose dropped index is (b, c) is (b, c, h, w) for its own h and w. -/
theorem eq_of_drop {A B H W N : ℕ} (hN : N = H * W) (h' : (⟨4, ![A, B, H, W]⟩ : Shape).ReducesTo [2, 3] ⟨2, ![A, B]⟩)
    (b : Fin A) (c : Fin B) (i : (⟨4, ![A, B, H, W]⟩ : Shape).Idx) (hi : h'.drop i = ix2 b c) :
    ix4 b c (planeRow hN (planePos hN ⟨(i 2).val, (i 2).isLt⟩ ⟨(i 3).val, (i 3).isLt⟩))
      (planeCol hN (planePos hN ⟨(i 2).val, (i 2).isLt⟩ ⟨(i 3).val, (i 3).isLt⟩)) = i := by
  rw [planeRow_pos, planeCol_pos]
  have h0 : (i 0).val = b.val := by rw [← drop_val0 h' i, hi]; rfl
  have h1 : (i 1).val = c.val := by rw [← drop_val1 h' i, hi]; rfl
  funext a
  match a with
  | ⟨0, _⟩ => exact Fin.ext h0.symm
  | ⟨1, _⟩ => exact Fin.ext h1.symm
  | ⟨2, _⟩ => rfl
  | ⟨3, _⟩ => rfl

/-- The host's `reduce add` of an [A, B, H, W] array over its two trailing axes, at (b, c): the initial value plus the
    sum, over the H·W positions l of the plane, of the array at (b, c, l / W, l % W). A sum over a finite index set in a
    commutative monoid: no finiteness of the summands is asked. -/
theorem hostReduceAdd_plane {A B H W N : ℕ} (hN : N = H * W)
    (h' : (⟨4, ![A, B, H, W]⟩ : Shape).ReducesTo [2, 3] ⟨2, ![A, B]⟩)
    (x : (⟨4, ![A, B, H, W]⟩ : Shape).Idx → EReal) (init : EReal) (b : Fin A) (c : Fin B) :
    Ideal.hostReduceAdd h' x init (ix2 b c)
      = init + ∑ l : Fin N, x (ix4 b c (planeRow hN l) (planeCol hN l)) := by
  unfold Ideal.hostReduceAdd
  refine congrArg (init + ·) ?_
  refine Finset.sum_nbij' (fun i => planePos hN ⟨(i 2).val, (i 2).isLt⟩ ⟨(i 3).val, (i 3).isLt⟩)
    (fun l => ix4 b c (planeRow hN l) (planeCol hN l))
    (fun _ _ => Finset.mem_univ _) (fun l _ => ?_) (fun i hi => ?_) (fun l _ => planePos_row_col hN l) (fun i hi => ?_)
  · refine Finset.mem_filter.mpr ⟨Finset.mem_univ _, funext fun a => Fin.ext ?_⟩
    match a with
    | ⟨0, _⟩ => exact drop_val0 h' _
    | ⟨1, _⟩ => exact drop_val1 h' _
  · exact eq_of_drop hN h' b c i (Finset.mem_filter.mp hi).2
  · exact congrArg x (eq_of_drop hN h' b c i (Finset.mem_filter.mp hi).2).symm

end Cert.PlaneRows
-- ==== Proof.Consts.lean ====
/-
  The float words the two programs spell, as the extended reals they denote: 16384 (the reference's divisor, the
  number of positions of a 128 × 128 plane), its reciprocal 2⁻¹⁴ (the kernel's factor: an exact power of two, so the
  word denotes the reciprocal itself), and the quotient by the one as the product with the other, on every extended real.
-/
import Idealize.ShloMosaic.PureOps.Ideal

noncomputable section

namespace Cert.Consts

open Idealize.ShloMosaic

/-- The word of `16384.0` denotes the real 16384. -/
theorem ofBits_16384 : Ideal.ofBits .f32 0x46800000#32 = ((16384 : ℝ) : EReal) := by
  simp [Ideal.ofBits, Ideal.ieee, -EReal.coe_mul]; norm_num

/-- The word of `6.10351563e-5` denotes 2⁻¹⁴ = 1/16384 exactly. -/
theorem ofBits_inv_16384 : Ideal.ofBits .f32 0x38800000#32 = ((1 / 16384 : ℝ) : EReal) := by
  simp [Ideal.ofBits, Ideal.ieee, -EReal.coe_mul]; norm_num

/-- Dividing by the one word is multiplying by the other, at every extended real (the infinities included). -/
theorem div_16384 (y : EReal) :
    Ideal.div y (Ideal.ofBits .f32 0x46800000#32) = y * Ideal.ofBits .f32 0x38800000#32 := by
  rw [ofBits_16384, ofBits_inv_16384, Ideal.div_coe (by norm_num : (16384 : ℝ) ≠ 0)]

end Cert.Consts

end
-- ==== Proof.Bridge.lean ====
/-
  The reference's result and the kernel's are one function of the arguments, at the extended reals.

  Reference: x · g(mean x), with mean x the sum over each 128 × 128 plane divided by 16384 and g the squeeze-and-excite
  gate, broadcast back over the planes. Kernel: the same on the row-flattened layout [4096, 16384], the mean as a lane
  sum times 2⁻¹⁴. Two facts join them:
    * the pooled means agree: the plane's sum is the flattened row's lane sum (one finite sum over the same index set,
      re-indexed; sums from the zero word, which is 0), and dividing by 16384 is multiplying by 2⁻¹⁴ on every extended
      real — no finiteness of the inputs is used;
    * around the gate, which both programs apply as the same chain of host operations and which is never opened, the
      reshapes and broadcasts only re-index: the result at (b, c, h, w) is x(b, c, h, w) · gate(b, c) on both sides.
-/
import proofs.«161845_j33706903339438_2_alg».proof.Proof.KernelRun
import proofs.«161845_j33706903339438_2_alg».proof.Proof.Gen.ReferenceIdeal.Run
import proofs.«161845_j33706903339438_2_alg».proof.Proof.LibPlaneRows
import proofs.«161845_j33706903339438_2_alg».proof.Proof.Consts
import Idealize.ShloMosaic.PureOps.Ideal.Laws
import Idealize.ShloMosaic.Lib.ValueIdx
import Idealize.ShloMosaic.Lib.Pipeline.Value

noncomputable section

namespace Cert.ReferenceIdeal.Ref

open Cert.ReferenceIdeal Cert.ReferenceIdeal.Gen Idealize.ShloMosaic Idealize.ShloMosaic.ValueIdx
open Cert.PlaneRows Cert.KernelIdeal.Rows

/-- The squeeze-and-excite gate as the reference computes it from the pooled means: the same chain of host operations
    as the kernel's program applies. -/
def seGate (s : FVec Ideal S16x256 .f32) (w1 : FVec Ideal S16x256 .f32) (b1 : FVec Ideal S16 .f32)
    (w2 : FVec Ideal S256x16 .f32) (b2 : FVec Ideal S256 .f32) : FVec Ideal S16x256 .f32 :=
  Host.divf (F := Ideal) (broadcastInDim S16x256 ![] bcast_S_S16x256 (constant (F := Ideal) S_ .f32 0x3F800000#32)) (addf (broadcastInDim S16x256 ![] bcast_S_S16x256 (constant (F := Ideal) S_ .f32 0x3F800000#32)) (Host.exp (F := Ideal) (Host.negf (F := Ideal) (addf (Host.dotGeneral (F := Ideal) dot_S16x16_S256x16_S16x256_1_1_0_0_n_n none (maximumf (addf (Host.dotGeneral (F := Ideal) dot_S16x256_S16x256_S16x16_1_1_0_0_n_n none s w1) (broadcastInDim S16x16 ![0, 1] bcast_S1x16_S16x16_0_1 (broadcastInDim S1x16 ![1] bcast_S16_S1x16_1 b1))) (broadcastInDim S16x16 ![] bcast_S_S16x16 (constant (F := Ideal) S_ .f32 0x00000000#32))) w2) (broadcastInDim S16x256 ![0, 1] bcast_S1x256_S16x256_0_1 (broadcastInDim S1x256 ![1] bcast_S256_S1x256_1 b2))))))

/-- The two programs' gates are one function: the same operations over the same dimension records. -/
theorem seGate_eq : seGate = Cert.KernelIdeal.Run.seGate := rfl

/-- The reference's pooled means: each plane's sum, from the zero word, divided by the word of 16384. -/
def pooled (x : FVec Ideal S16x256x128x128 .f32) : FVec Ideal S16x256 .f32 :=
  Host.divf (F := Ideal) (Host.reduceAdd (F := Ideal) x (constant (F := Ideal) S_ .f32 0x00000000#32) reducesTo_S16x256x128x128_S16x256_d2_3 h_S_)
    (broadcastInDim S16x256 ![] bcast_S_S16x256 (constant (F := Ideal) S_ .f32 0x46800000#32))

/-- The gate broadcast over the planes and multiplied into x. -/
def gated (x : FVec Ideal S16x256x128x128 .f32) (g : FVec Ideal S16x256 .f32) : FVec Ideal S16x256x128x128 .f32 :=
  mulf x (broadcastInDim S16x256x128x128 ![0, 1, 2, 3] bcast_S16x256x1x1_S16x256x128x128_0_1_2_3
    (broadcastInDim S16x256x1x1 ![0, 1] bcast_S16x256_S16x256x1x1_0_1 g))

theorem rows_eq : (4096 : ℕ) = 16 * 256 := by norm_num
theorem lanes_eq : (16384 : ℕ) = 128 * 128 := by norm_num

/-- THE POOLED MEANS AGREE: the reference's mean over a plane is the kernel's mean over the flattened row, at every
    extended real. -/
theorem pooled_eq (x : FVec Ideal S16x256x128x128 .f32) :
    pooled x = shapeCast Cert.KernelIdeal.S16x256
      (rowMean (shapeCast Cert.KernelIdeal.S4096x16384 x Cert.KernelIdeal.Gen.shapeCasts_S16x256x128x128_S4096x16384))
      Cert.KernelIdeal.Gen.shapeCasts_S4096x1_S16x256 := by
  funext j
  obtain ⟨b, c, rfl⟩ : ∃ (b : Fin 16) (c : Fin 256), j = ix2 b c := ⟨j 0, j 1, eq_ix2 j⟩
  refine Eq.trans ?_ (column_to_grid_apply rows_eq _ Cert.KernelIdeal.Gen.shapeCasts_S4096x1_S16x256 b c).symm
  show Ideal.div (Ideal.hostReduceAdd reducesTo_S16x256x128x128_S16x256_d2_3 x (Ideal.ofBits .f32 0x00000000#32) (ix2 b c))
      (Ideal.ofBits .f32 0x46800000#32)
    = (∑ l : Fin 16384, shapeCast Cert.KernelIdeal.S4096x16384 x Cert.KernelIdeal.Gen.shapeCasts_S16x256x128x128_S4096x16384
        (ix2 (flatRow rows_eq b c) l)) * Ideal.ofBits .f32 0x38800000#32
  rw [Cert.Consts.div_16384, hostReduceAdd_plane lanes_eq, Ideal.ofBits_zero_f32, zero_add]
  refine congrArg (· * Ideal.ofBits .f32 0x38800000#32) (Finset.sum_congr rfl fun l _ => ?_)
  exact (flatten_apply rows_eq lanes_eq x Cert.KernelIdeal.Gen.shapeCasts_S16x256x128x128_S4096x16384 b c l).symm

/-- AROUND THE GATE the two layouts only re-index: x times the gate broadcast over the planes is the flat array's rows
    scaled by the gate as a column, reshaped back. -/
theorem gated_eq (x : FVec Ideal S16x256x128x128 .f32) (g : FVec Ideal S16x256 .f32) :
    gated x g = shapeCast Cert.KernelIdeal.S16x256x128x128
      (rowScale (shapeCast Cert.KernelIdeal.S4096x16384 x Cert.KernelIdeal.Gen.shapeCasts_S16x256x128x128_S4096x16384)
        (shapeCast Cert.KernelIdeal.S4096x1 g Cert.KernelIdeal.Gen.shapeCasts_S16x256_S4096x1))
      Cert.KernelIdeal.Gen.shapeCasts_S4096x16384_S16x256x128x128 := by
  funext i
  obtain ⟨b, c, p, q, rfl⟩ : ∃ (b : Fin 16) (c : Fin 256) (p : Fin 128) (q : Fin 128), i = ix4 b c p q :=
    ⟨i 0, i 1, i 2, i 3, eq_ix4 i⟩
  refine Eq.trans ?_ (unflatten_apply rows_eq lanes_eq _ Cert.KernelIdeal.Gen.shapeCasts_S4096x16384_S16x256x128x128 b c p q).symm
  show x (ix4 b c p q) * (broadcastInDim S16x256x128x128 ![0, 1, 2, 3] bcast_S16x256x1x1_S16x256x128x128_0_1_2_3
        (broadcastInDim S16x256x1x1 ![0, 1] bcast_S16x256_S16x256x1x1_0_1 g) (ix4 b c p q))
    = shapeCast Cert.KernelIdeal.S4096x16384 x Cert.KernelIdeal.Gen.shapeCasts_S16x256x128x128_S4096x16384
          (ix2 (flatRow rows_eq b c) (planePos lanes_eq p q))
        * shapeCast Cert.KernelIdeal.S4096x1 g Cert.KernelIdeal.Gen.shapeCasts_S16x256_S4096x1 (ix2 (flatRow rows_eq b c) (0 : Fin 1))
  rw [flatten_apply rows_eq lanes_eq, planeRow_pos, planeCol_pos, grid_to_column_apply rows_eq]
  refine congrArg (x (ix4 b c p q) * ·) ?_
  refine (broadcastInDim_apply _ bcast_S16x256x1x1_S16x256x128x128_0_1_2_3 _ (ix4 b c p q) (ix4 b c (0 : Fin 1) (0 : Fin 1)) fun a => ?_).trans
    (broadcastInDim_apply _ bcast_S16x256_S16x256x1x1_0_1 g (ix4 b c (0 : Fin 1) (0 : Fin 1)) (ix2 b c) fun a => ?_)
  · match a with
    | ⟨0, _⟩ => show b.val = if (16 : Nat) = 1 then 0 else b.val; rw [if_neg (by decide)]
    | ⟨1, _⟩ => show c.val = if (256 : Nat) = 1 then 0 else c.val; rw [if_neg (by decide)]
    | ⟨2, _⟩ => show 0 = if (1 : Nat) = 1 then 0 else p.val; rw [if_pos rfl]
    | ⟨3, _⟩ => show 0 = if (1 : Nat) = 1 then 0 else q.val; rw [if_pos rfl]
  · match a with
    | ⟨0, _⟩ => show b.val = if (16 : Nat) = 1 then 0 else b.val; rw [if_neg (by decide)]
    | ⟨1, _⟩ => show c.val = if (256 : Nat) = 1 then 0 else c.val; rw [if_neg (by decide)]

/-- THE TWO RESULTS ARE ONE FUNCTION of the arguments. -/
theorem result_eq (x : FVec Ideal S16x256x128x128 .f32) (w1 : FVec Ideal S16x256 .f32) (b1 : FVec Ideal S16 .f32)
    (w2 : FVec Ideal S256x16 .f32) (b2 : FVec Ideal S256 .f32) :
    gated x (seGate (pooled x) w1 b1 w2 b2) = Cert.KernelIdeal.Run.result x w1 b1 w2 b2 := by
  rw [gated_eq, pooled_eq, seGate_eq]
  rfl

end Cert.ReferenceIdeal.Ref

end
-- ==== Proof.lean ====
/-
  The claim: the squeeze-and-excite module x · g(mean x) — a global average pool over each 128 × 128 plane, two small
  matrix products with bias, a maximum with zero and a logistic, and the gate multiplied back into x — computed by two
  pipelined passes over the row-flattened array [4096, 16384] with the gate on the host between them, against the same
  module written directly on [16, 256, 128, 128].

  The three frames are the generated ones (the reference's is its generated run with the result dropped); nothing was
  rewritten by the idealization, so `preserves` is trivial; and at the extended reals both programs end with the one
  function `Run.result` of the arguments: the kernel's by reading its run (Proof/KernelRun.lean, over the two regions'
  whole-array values in Proof/PoolValue.lean and Proof/GateValue.lean), the reference's by its generated run and
  Proof/Bridge.lean — a plane's sum is the flattened row's lane sum, dividing by 16384 is multiplying by 2⁻¹⁴, and the
  gate between is the same chain of host operations on both sides.
-/
import proofs.«161845_j33706903339438_2_alg».proof.Defs
import proofs.«161845_j33706903339438_2_alg».proof.Proof.Gen.Kernel
import proofs.«161845_j33706903339438_2_alg».proof.Proof.Gen.Kernel.Frame
import proofs.«161845_j33706903339438_2_alg».proof.Proof.Gen.KernelIdeal
import proofs.«161845_j33706903339438_2_alg».proof.Proof.Gen.KernelIdeal.Frame
import proofs.«161845_j33706903339438_2_alg».proof.Proof.Gen.ReferenceIdeal
import proofs.«161845_j33706903339438_2_alg».proof.Proof.Gen.ReferenceIdeal.Run
import proofs.«161845_j33706903339438_2_alg».proof.Proof.Gen.Pre_finite_inputs
import proofs.«161845_j33706903339438_2_alg».proof.Proof.KernelRun
import proofs.«161845_j33706903339438_2_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's run ends at
    `Run.result` of its arguments, the reference's at x · gate(mean x) of its own, and these are one function. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.Ref.result_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
